-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S67108864 : Shape := ⟨1, ![67108864]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel
  bcast_S_S67108864 : S_.BroadcastsInDim S67108864 (![] : Fin 0 → Fin S67108864.rank)
  reducesTo_S67108864_S_d0 : S67108864.ReducesTo [0] S_

variable [Facts]

def fn {F : FTy → Type} [FloatOps F] (main_arg0 : FVec F S65536 .f32) (main_arg1 : FVec F S67108864 .f32) : IVec S_ 1 :=
  let main_v0 : FVec F S65536 .f32 := Host.absf main_arg0
  let main_cst : FVec F S_ .f32 := constant S_ .f32 0x7F800000#32
  let main_v1 : FVec F S65536 .f32 := broadcastInDim S65536 ![] bcast_S_S65536 main_cst
  let main_v2 : IVec S65536 1 := cmpf .olt main_v0 main_v1
  let main_c : IVec S_ 1 := constantI S_ 1 1#1
  let main_v3 : IVec S_ 1 := (fun x v => Host.reduce IntOp.andi x v reducesTo_S65536_S_d0 h_S_) main_v2 main_c
  let main_v4 : FVec F S67108864 .f32 := Host.absf main_arg1
  let main_cst_0 : FVec F S_ .f32 := constant S_ .f32 0x7F800000#32
  let main_v5 : FVec F S67108864 .f32 := broadcastInDim S67108864 ![] bcast_S_S67108864 main_cst_0
  let main_v6 : IVec S67108864 1 := cmpf .olt main_v4 main_v5
  let main_c_1 : IVec S_ 1 := constantI S_ 1 1#1
  let main_v7 : IVec S_ 1 := (fun x v => Host.reduce IntOp.andi x v reducesTo_S67108864_S_d0 h_S_) main_v6 main_c_1
  let main_v8 : IVec S_ 1 := andi main_v3 main_v7
  main_v8
-- ==== Kernel.lean ====
abbrev S65536 : Shape := ⟨1, ![65536]⟩
abbrev S67108864 : Shape := ⟨1, ![67108864]⟩
abbrev S4096 : Shape := ⟨1, ![4096]⟩
abbrev S4096x1 : Shape := ⟨2, ![4096, 1]⟩
abbrev S1x4096 : Shape := ⟨2, ![1, 4096]⟩
abbrev S_ : Shape := ⟨0, ![]⟩
abbrev S8x4096 : Shape := ⟨2, ![8, 4096]⟩
abbrev S12288 : Shape := ⟨1, ![12288]⟩
abbrev S4096x3 : Shape := ⟨2, ![4096, 3]⟩
abbrev S3x4096 : Shape := ⟨2, ![3, 4096]⟩
abbrev S20480 : Shape := ⟨1, ![20480]⟩
abbrev S4096x5 : Shape := ⟨2, ![4096, 5]⟩
abbrev S5x4096 : Shape := ⟨2, ![5, 4096]⟩
abbrev S28672 : Shape := ⟨1, ![28672]⟩
abbrev S4096x7 : Shape := ⟨2, ![4096, 7]⟩
abbrev S7x4096 : Shape := ⟨2, ![7, 4096]⟩
abbrev S1x8x4096 : Shape := ⟨3, ![1, 8, 4096]⟩
abbrev S4x8x4096 : Shape := ⟨3, ![4, 8, 4096]⟩
abbrev S4x4096x4096 : Shape := ⟨3, ![4, 4096, 4096]⟩
abbrev S1x4096x512 : Shape := ⟨3, ![1, 4096, 512]⟩
abbrev S1x8x512 : Shape := ⟨3, ![1, 8, 512]⟩
abbrev S4096x512 : Shape := ⟨2, ![4096, 512]⟩
abbrev S8x512 : Shape := ⟨2, ![8, 512]⟩
abbrev S1x1x4096 : Shape := ⟨3, ![1, 1, 4096]⟩
abbrev S1x3x4096 : Shape := ⟨3, ![1, 3, 4096]⟩
abbrev S1x5x4096 : Shape := ⟨3, ![1, 5, 4096]⟩
abbrev S1x7x4096 : Shape := ⟨3, ![1, 7, 4096]⟩

abbrev nBuf : Space → Nat
  | .hbm => 50
  | .vmem => 5
  | .smem => 0
  | _ => 0

abbrev bufTy : (tb : Table) → Fin (tcTables nBuf tb) → BufTy
  | .hbm, ⟨0, _⟩ => ⟨S65536, .f32⟩
  | .hbm, ⟨1, _⟩ => ⟨S67108864, .f32⟩
  | .hbm, ⟨2, _⟩ => ⟨S4096, .f32⟩
  | .hbm, ⟨3, _⟩ => ⟨S4096x1, .f32⟩
  | .hbm, ⟨4, _⟩ => ⟨S1x4096, .f32⟩
  | .hbm, ⟨5, _⟩ => ⟨S_, .i32⟩
  | .hbm, ⟨6, _⟩ => ⟨S_, .f32⟩
  | .hbm, ⟨7, _⟩ => ⟨S8x4096, .f32⟩
  | .hbm, ⟨8, _⟩ => ⟨S12288, .f32⟩
  | .hbm, ⟨9, _⟩ => ⟨S4096x3, .f32⟩
  | .hbm, ⟨10, _⟩ => ⟨S3x4096, .f32⟩
  | .hbm, ⟨11, _⟩ => ⟨S_, .i32⟩
  | .hbm, ⟨12, _⟩ => ⟨S_, .f32⟩
  | .hbm, ⟨13, _⟩ => ⟨S8x4096, .f32⟩
  | .hbm, ⟨14, _⟩ => ⟨S20480, .f32⟩
  | .hbm, ⟨15, _⟩ => ⟨S4096x5, .f32⟩
  | .hbm, ⟨16, _⟩ => ⟨S5x4096, .f32⟩
  | .hbm, ⟨17, _⟩ => ⟨S_, .i32⟩
  | .hbm, ⟨18, _⟩ => ⟨S_, .f32⟩
  | .hbm, ⟨19, _⟩ => ⟨S8x4096, .f32⟩
  | .hbm, ⟨20, _⟩ => ⟨S28672, .f32⟩
  | .hbm, ⟨21, _⟩ => ⟨S4096x7, .f32⟩
  | .hbm, ⟨22, _⟩ => ⟨S7x4096, .f32⟩
  | .hbm, ⟨23, _⟩ => ⟨S_, .i32⟩
  | .hbm, ⟨24, _⟩ => ⟨S_, .f32⟩
  | .hbm, ⟨25, _⟩ => ⟨S8x4096, .f32⟩
  | .hbm, ⟨26, _⟩ => ⟨S1x8x4096, .f32⟩
  | .hbm, ⟨27, _⟩ => ⟨S1x8x4096, .f32⟩
  | .hbm, ⟨28, _⟩ => ⟨S1x8x4096, .f32⟩
  | .hbm, ⟨29, _⟩ => ⟨S1x8x4096, .f32⟩
  | .hbm, ⟨30, _⟩ => ⟨S4x8x4096, .f32⟩
  | .hbm, ⟨31, _⟩ => ⟨S4x4096x4096, .f32⟩
  | .hbm, ⟨32, _⟩ => ⟨S4x8x4096, .f32⟩
  | .hbm, ⟨33, _⟩ => ⟨S1x1x4096, .f32⟩
  | .hbm, ⟨34, _⟩ => ⟨S1x4096, .f32⟩
  | .hbm, ⟨35, _⟩ => ⟨S4096x1, .f32⟩
  | .hbm, ⟨36, _⟩ => ⟨S4096, .f32⟩
  | .hbm, ⟨37, _⟩ => ⟨S1x3x4096, .f32⟩
  | .hbm, ⟨38, _⟩ => ⟨S3x4096, .f32⟩
  | .hbm, ⟨39, _⟩ => ⟨S4096x3, .f32⟩
  | .hbm, ⟨40, _⟩ => ⟨S12288, .f32⟩
  | .hbm, ⟨41, _⟩ => ⟨S1x5x4096, .f32⟩
  | .hbm, ⟨42, _⟩ => ⟨S5x4096, .f32⟩
  | .hbm, ⟨43, _⟩ => ⟨S4096x5, .f32⟩
  | .hbm, ⟨44, _⟩ => ⟨S20480, .f32⟩
  | .hbm, ⟨45, _⟩ => ⟨S1x7x4096, .f32⟩
  | .hbm, ⟨46, _⟩ => ⟨S7x4096, .f32⟩
  | .hbm, ⟨47, _⟩ => ⟨S4096x7, .f32⟩
  | .hbm, ⟨48, _⟩ => ⟨S28672, .f32⟩
  | .hbm, ⟨49, _⟩ => ⟨S65536, .f32⟩
  | .local _ .vmem, ⟨0, _⟩ => ⟨S1x8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x8x512, .f32⟩
  | .local _ .vmem, ⟨4, _⟩ => ⟨S1x8x512, .f32⟩
  | _, _ => ⟨S65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call2_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_call3_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S65536_S4096_0 : S65536.Slices ![0] S4096
  shapeCasts_S4096_S4096x1 : S4096.ShapeCasts S4096x1
  transposes_S4096x1_S1x4096_1_0 : S4096x1.Transposes [1, 0] S1x4096
  pads_S1x4096_S8x4096_070_000 : S1x4096.Pads (![0, 0] : Fin 2 → Nat) ![7, 0] ![0, 0] S8x4096
  h_S_ : 0 < S_.numel
  slices_S65536_S12288_4096 : S65536.Slices ![4096] S12288
  shapeCasts_S12288_S4096x3 : S12288.ShapeCasts S4096x3
  transposes_S4096x3_S3x4096_1_0 : S4096x3.Transposes [1, 0] S3x4096
  pads_S3x4096_S8x4096_050_000 : S3x4096.Pads (![0, 0] : Fin 2 → Nat) ![5, 0] ![0, 0] S8x4096
  slices_S65536_S20480_16384 : S65536.Slices ![16384] S20480
  shapeCasts_S20480_S4096x5 : S20480.ShapeCasts S4096x5
  transposes_S4096x5_S5x4096_1_0 : S4096x5.Transposes [1, 0] S5x4096
  pads_S5x4096_S8x4096_030_000 : S5x4096.Pads (![0, 0] : Fin 2 → Nat) ![3, 0] ![0, 0] S8x4096
  slices_S65536_S28672_36864 : S65536.Slices ![36864] S28672
  shapeCasts_S28672_S4096x7 : S28672.ShapeCasts S4096x7
  transposes_S4096x7_S7x4096_1_0 : S4096x7.Transposes [1, 0] S7x4096
  pads_S7x4096_S8x4096_010_000 : S7x4096.Pads (![0, 0] : Fin 2 → Nat) ![1, 0] ![0, 0] S8x4096
  bcast_S8x4096_S1x8x4096_1_2 : S8x4096.BroadcastsInDim S1x8x4096 (![1, 2] : Fin 2 → Fin S1x8x4096.rank)
  concatenates_S1x8x4096_S1x8x4096_S1x8x4096_S1x8x4096_S4x8x4096_d0 : Shape.Concatenates [S1x8x4096, S1x8x4096, S1x8x4096, S1x8x4096] S4x8x4096 0
  shapeCasts_S67108864_S4x4096x4096 : S67108864.ShapeCasts S4x4096x4096
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  bitsLt_bf16_f32 : FTy.bits .bf16 < FTy.bits .f32
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  shapeCasts_S8x512_S1x8x512 : S8x512.ShapeCasts S1x8x512
  slices_S4x8x4096_S1x1x4096_0_0_0 : S4x8x4096.Slices ![0, 0, 0] S1x1x4096
  shapeCasts_S1x1x4096_S1x4096 : S1x1x4096.ShapeCasts S1x4096
  transposes_S1x4096_S4096x1_1_0 : S1x4096.Transposes [1, 0] S4096x1
  shapeCasts_S4096x1_S4096 : S4096x1.ShapeCasts S4096
  slices_S4x8x4096_S1x3x4096_1_0_0 : S4x8x4096.Slices ![1, 0, 0] S1x3x4096
  shapeCasts_S1x3x4096_S3x4096 : S1x3x4096.ShapeCasts S3x4096
  transposes_S3x4096_S4096x3_1_0 : S3x4096.Transposes [1, 0] S4096x3
  shapeCasts_S4096x3_S12288 : S4096x3.ShapeCasts S12288
  slices_S4x8x4096_S1x5x4096_2_0_0 : S4x8x4096.Slices ![2, 0, 0] S1x5x4096
  shapeCasts_S1x5x4096_S5x4096 : S1x5x4096.ShapeCasts S5x4096
  transposes_S5x4096_S4096x5_1_0 : S5x4096.Transposes [1, 0] S4096x5
  shapeCasts_S4096x5_S20480 : S4096x5.ShapeCasts S20480
  slices_S4x8x4096_S1x7x4096_3_0_0 : S4x8x4096.Slices ![3, 0, 0] S1x7x4096
  shapeCasts_S1x7x4096_S7x4096 : S1x7x4096.ShapeCasts S7x4096
  transposes_S7x4096_S4096x7_1_0 : S7x4096.Transposes [1, 0] S4096x7
  shapeCasts_S4096x7_S28672 : S4096x7.ShapeCasts S28672
  concatenates_S4096_S12288_S20480_S28672_S65536_d0 : Shape.Concatenates [S4096, S12288, S20480, S28672] S65536 0
  dot_S8x4096_S4096x512_S8x512_1_0_0_1_n_n_wf : DotDims.WF S8x4096 S4096x512 S8x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x8x4096.size a ≤ S4x8x4096.size a
  hwx0_0 : ∀ i : grid0.Coords, EltTy.bits .f32 = 32 ∨ (Rect.block (s := S4x8x4096) S1x8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x512.size a ≤ S4x4096x4096.size a
  hwx0_1 : ∀ i : grid0.Coords, EltTy.bits .f32 = 32 ∨ (Rect.block (s := S4x4096x4096) S1x4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512.size a ≤ S4x8x4096.size a
  hwx0_2 : ∀ i : grid0.Coords, EltTy.bits .f32 = 32 ∨ (Rect.block (s := S4x8x4096) S1x8x512.size (cc0_transform_2 i) (hinb0_2 i)).WholeWords (EltTy.packing .f32)

variable [Facts₀]

def dot_S8x4096_S4096x512_S8x512_1_0_0_1_n_n : DotDims S8x4096 S4096x512 S8x512 where
  lhsContracting := [1]
  rhsContracting := [0]
  lhsNonContracting := [0]
  rhsNonContracting := [1]
  lhsBatch := []
  rhsBatch := []
  wf := dot_S8x4096_S4096x512_S8x512_1_0_0_1_n_n_wf

abbrev win0_0 : Pipeline.Window sig grid0 :=
  Pipeline.Window.ofSpec (Memref.whole main_v20) S1x8x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1x4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536 : Shape := ⟨1, ![65536]⟩
abbrev S67108864 : Shape := ⟨1, ![67108864]⟩
abbrev S4096 : Shape := ⟨1, ![4096]⟩
abbrev S4096x1 : Shape := ⟨2, ![4096, 1]⟩
abbrev S16777216 : Shape := ⟨1, ![16777216]⟩
abbrev S4096x4096 : Shape := ⟨2, ![4096, 4096]⟩
abbrev S_ : Shape := ⟨0, ![]⟩
abbrev S12288 : Shape := ⟨1, ![12288]⟩
abbrev S4096x3 : Shape := ⟨2, ![4096, 3]⟩
abbrev S20480 : Shape := ⟨1, ![20480]⟩
abbrev S4096x5 : Shape := ⟨2, ![4096, 5]⟩
abbrev S28672 : Shape := ⟨1, ![28672]⟩
abbrev S4096x7 : Shape := ⟨2, ![4096, 7]⟩

abbrev nBuf : Space → Nat
  | .hbm => 39
  | .vmem => 0
  | .smem => 0
  | _ => 0

abbrev bufTy : (tb : Table) → Fin (tcTables nBuf tb) → BufTy
  | .hbm, ⟨0, _⟩ => ⟨S65536, .f32⟩
  | .hbm, ⟨1, _⟩ => ⟨S67108864, .f32⟩
  | .hbm, ⟨2, _⟩ => ⟨S4096, .f32⟩
  | .hbm, ⟨3, _⟩ => ⟨S4096x1, .f32⟩
  | .hbm, ⟨4, _⟩ => ⟨S16777216, .f32⟩
  | .hbm, ⟨5, _⟩ => ⟨S4096x4096, .f32⟩
  | .hbm, ⟨6, _⟩ => ⟨S4096x1, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S12288, .f32⟩
  | .hbm, ⟨12, _⟩ => ⟨S4096x3, .f32⟩
  | .hbm, ⟨13, _⟩ => ⟨S16777216, .f32⟩
  | .hbm, ⟨14, _⟩ => ⟨S4096x4096, .f32⟩
  | .hbm, ⟨15, _⟩ => ⟨S4096x3, .f32⟩
  | .hbm, ⟨16, _⟩ => ⟨S12288, .f32⟩
  | .hbm, ⟨17, _⟩ => ⟨S_, .f32⟩
  | .hbm, ⟨18, _⟩ => ⟨S12288, .f32⟩
  | .hbm, ⟨19, _⟩ => ⟨S12288, .f32⟩
  | .hbm, ⟨20, _⟩ => ⟨S20480, .f32⟩
  | .hbm, ⟨21, _⟩ => ⟨S4096x5, .f32⟩
  | .hbm, ⟨22, _⟩ => ⟨S16777216, .f32⟩
  | .hbm, ⟨23, _⟩ => ⟨S4096x4096, .f32⟩
  | .hbm, ⟨24, _⟩ => ⟨S4096x5, .f32⟩
  | .hbm, ⟨25, _⟩ => ⟨S20480, .f32⟩
  | .hbm, ⟨26, _⟩ => ⟨S_, .f32⟩
  | .hbm, ⟨27, _⟩ => ⟨S20480, .f32⟩
  | .hbm, ⟨28, _⟩ => ⟨S20480, .f32⟩
  | .hbm, ⟨29, _⟩ => ⟨S28672, .f32⟩
  | .hbm, ⟨30, _⟩ => ⟨S4096x7, .f32⟩
  | .hbm, ⟨31, _⟩ => ⟨S16777216, .f32⟩
  | .hbm, ⟨32, _⟩ => ⟨S4096x4096, .f32⟩
  | .hbm, ⟨33, _⟩ => ⟨S4096x7, .f32⟩
  | .hbm, ⟨34, _⟩ => ⟨S28672, .f32⟩
  | .hbm, ⟨35, _⟩ => ⟨S_, .f32⟩
  | .hbm, ⟨36, _⟩ => ⟨S28672, .f32⟩
  | .hbm, ⟨37, _⟩ => ⟨S28672, .f32⟩
  | .hbm, ⟨38, _⟩ => ⟨S65536, .f32⟩
  | _, _ => ⟨S65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]

class Facts₀ : Prop where
  slices_S65536_S4096_0 : S65536.Slices ![0] S4096
  shapeCasts_S4096_S4096x1 : S4096.ShapeCasts S4096x1
  slices_S67108864_S16777216_0 : S67108864.Slices ![0] S16777216
  shapeCasts_S16777216_S4096x4096 : S16777216.ShapeCasts S4096x4096
  shapeCasts_S4096x1_S4096 : S4096x1.ShapeCasts S4096
  bcast_S_S4096 : S_.BroadcastsInDim S4096 (![] : Fin 0 → Fin S4096.rank)
  slices_S65536_S12288_4096 : S65536.Slices ![4096] S12288
  shapeCasts_S12288_S4096x3 : S12288.ShapeCasts S4096x3
  slices_S67108864_S16777216_16777216 : S67108864.Slices ![16777216] S16777216
  shapeCasts_S4096x3_S12288 : S4096x3.ShapeCasts S12288
  bcast_S_S12288 : S_.BroadcastsInDim S12288 (![] : Fin 0 → Fin S12288.rank)
  slices_S65536_S20480_16384 : S65536.Slices ![16384] S20480
  shapeCasts_S20480_S4096x5 : S20480.ShapeCasts S4096x5
  slices_S67108864_S16777216_33554432 : S67108864.Slices ![33554432] S16777216
  shapeCasts_S4096x5_S20480 : S4096x5.ShapeCasts S20480
  bcast_S_S20480 : S_.BroadcastsInDim S20480 (![] : Fin 0 → Fin S20480.rank)
  slices_S65536_S28672_36864 : S65536.Slices ![36864] S28672
  shapeCasts_S28672_S4096x7 : S28672.ShapeCasts S4096x7
  slices_S67108864_S16777216_50331648 : S67108864.Slices ![50331648] S16777216
  shapeCasts_S4096x7_S28672 : S4096x7.ShapeCasts S28672
  bcast_S_S28672 : S_.BroadcastsInDim S28672 (![] : Fin 0 → Fin S28672.rank)
  concatenates_S4096_S12288_S20480_S28672_S65536_d0 : Shape.Concatenates [S4096, S12288, S20480, S28672] S65536 0
  dot_S4096x4096_S4096x1_S4096x1_0_0_1_1_n_n_wf : DotDims.WF S4096x4096 S4096x1 S4096x1 [0] [0] [1] [1] [] []
  dot_S4096x4096_S4096x3_S4096x3_0_0_1_1_n_n_wf : DotDims.WF S4096x4096 S4096x3 S4096x3 [0] [0] [1] [1] [] []
  dot_S4096x4096_S4096x5_S4096x5_0_0_1_1_n_n_wf : DotDims.WF S4096x4096 S4096x5 S4096x5 [0] [0] [1] [1] [] []
  dot_S4096x4096_S4096x7_S4096x7_0_0_1_1_n_n_wf : DotDims.WF S4096x4096 S4096x7 S4096x7 [0] [0] [1] [1] [] []

variable [Facts₀]

def dot_S4096x4096_S4096x1_S4096x1_0_0_1_1_n_n : DotDims S4096x4096 S4096x1 S4096x1 where
  lhsContracting := [0]
  rhsContracting := [0]
  lhsNonContracting := [1]
  rhsNonContracting := [1]
  lhsBatch := []
  rhsBatch := []
  wf := dot_S4096x4096_S4096x1_S4096x1_0_0_1_1_n_n_wf
def dot_S4096x4096_S4096x3_S4096x3_0_0_1_1_n_n : DotDims S4096x4096 S4096x3 S4096x3 where
  lhsContracting := [0]
  rhsContracting := [0]
  lhsNonContracting := [1]
  rhsNonContracting := [1]
  lhsBatch := []
  rhsBatch := []
  wf := dot_S4096x4096_S4096x3_S4096x3_0_0_1_1_n_n_wf
def dot_S4096x4096_S4096x5_S4096x5_0_0_1_1_n_n : DotDims S4096x4096 S4096x5 S4096x5 where
  lhsContracting := [0]
  rhsContracting := [0]
  lhsNonContracting := [1]
  rhsNonContracting := [1]
  lhsBatch := []
  rhsBatch := []
  wf := dot_S4096x4096_S4096x5_S4096x5_0_0_1_1_n_n_wf
def dot_S4096x4096_S4096x7_S4096x7_0_0_1_1_n_n : DotDims S4096x4096 S4096x7 S4096x7 where
  lhsContracting := [0]
  rhsContracting := [0]
  lhsNonContracting := [1]
  rhsNonContracting := [1]
  lhsBatch := []
  rhsBatch := []
  wf := dot_S4096x4096_S4096x7_S4096x7_0_0_1_1_n_n_wf

class Facts : Prop extends Facts₀ where

variable [Facts]
-- ==== Proof.HostBits.lean ====
/-
  The host side of the frame of `Kernel`'s @main: the program is nine stretches of host lines (four input chunks
  sliced, reshaped, transposed and zero-padded to eight rows, then stacked along a new leading axis, and the weights
  reshaped to [4, 4096, 4096]), ONE kernel launch over a 4 × 8 grid, and seventeen host lines that cut the four
  results back out and join them. Here: the buffer contents the launch finds (the fold of the lines before it over
  the start memory), that @main is "lines, launch, lines", that the later lines touch only what they may and write
  no array of the launch, that neither argument array is ever written, and each window's block at a grid point.
-/
import proofs.«105715_j81286551044362_2_alg».proof.Proof.Gen.Kernel.Launch
import proofs.«105715_j81286551044362_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Host

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the launch -/

/-- Core `c`'s buffer contents when the kernel is launched: the nine stretches of host lines before it, folded
    over the start memory. -/
abbrev V0 (c : Dev nD) : Valuation τ sig (Elt F) := StableHlo.after (List.flatten [hostOps0, hostOps0_1, hostOps0_2, hostOps0_3, hostOps0_4, hostOps0_5, hostOps0_6, hostOps0_7, hostOps0_8]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the host lines before the launch, the launch, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The lines after the launch touch only the launch's arrays and buffers the launch leaves alone. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes only its own result buffer, which is none of the launch's three arrays. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host line before the launch writes `main_arg0`: the launch finds it as the program was started with. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes `main_arg1`: the launch finds it as the program was started with. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the launch writes `main_arg0` either, and it is no array of the launch: it ends as started. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line after the launch writes `main_arg1` either, and it is no array of the launch: it ends as started. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, cut out of the window's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every grid point, whether the pipeline
    fetched it at that point or kept it from the point before (the block index had not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the window's block at every grid point, whether the pipeline
    fetched it at that point or kept it from the point before (the block index had not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the launch -/

/-- A run that ends with every array of the launch at what the proof data says and every other buffer as the later
    host lines leave it ends with both argument arrays unchanged: they are no array of the launch and no host
    line writes them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

end Cert.Kernel.Host

end
-- ==== Proof.BodyBits.lean ====
/-
  One grid point of `Kernel`'s kernel: the body reads its whole [1, 8, 4096] input block and its whole
  [1, 4096, 512] weight block, reads (and ignores) what its [1, 8, 512] output buffer held, and overwrites that buffer
  whole with ONE value computed from the two blocks — the product of the 8 × 4096 and 4096 × 512 matrices, scaled.
  So after the body the two input buffers are as they were and the output buffer holds that value, whatever it held
  before.
-/
import proofs.«105715_j81286551044362_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is its whole buffer -/

abbrev r0_0 : Rect S1x8x4096 := Rect.unit (s := S1x8x4096) ![0, 0, 0] S1x8x4096.size inb_S1x8x4096_S1x8x4096_0_0_0
abbrev r0_1 : Rect S1x4096x512 := Rect.unit (s := S1x4096x512) ![0, 0, 0] S1x4096x512.size inb_S1x4096x512_S1x4096x512_0_0_0
abbrev r0_2 : Rect S1x8x512 := Rect.unit (s := S1x8x512) ![0, 0, 0] S1x8x512.size inb_S1x8x512_S1x8x512_0_0_0

/-- What the output buffer holds after the body, from the two input blocks: its one store, of the scaled matrix
    product of what the two loads read. -/
def out0_2 (x0 : Vec F S1x8x4096 .f32) (x1 : Vec F S1x4096x512 .f32) : Vec F S1x8x512 .f32 :=
  View.canon [⟨r0_2, k0_pay1 (View.ld x0 r0_0) (View.ld x1 r0_1)⟩]

/-- The one store covers the output buffer. -/
theorem cover0_2 (p0 : Vec F S1x8x512 .f32) (y : S1x8x512.Idx) :
    ∃ pc ∈ ([⟨r0_2, p0⟩] : List (View.Piece (Elt F) S1x8x512 .f32)), y ∈ pc.1.set :=
  View.cover_of_tiled [⟨r0_2, p0⟩] S1x8x512.size (by rfl) y

set_option maxHeartbeats 1000000 in
/-- The body, on whole buffers holding `x0`, `x1` and anything, runs without a fault to a state with the two
    inputs unchanged and the output buffer at `out0_2 x0 x1`. -/
theorem sound_kernel (c : Dev nD) (E : Set ℕ) (i : grid0.Coords)
    (arg2 : Memref sig .tc .vmem S1x8x4096 .f32) (harg2 : arg2.IsWhole)
    (arg3 : Memref sig .tc .vmem S1x4096x512 .f32) (harg3 : arg3.IsWhole)
    (arg4 : Memref sig .tc .vmem S1x8x512 .f32) (harg4 : arg4.IsWhole)
    (x0 : Vec F S1x8x4096 .f32) (x1 : Vec F S1x4096x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__fused_kernel i arg2 harg2 arg3 harg3 arg4 harg4) K := by
  simp only [cc0__fused_kernel_eq_skeleton]; unfold cc0__fused_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.Kernel.Body

end
-- ==== Proof.RunBits.lean ====
/-
  The launch of `Kernel`'s kernel over its 4 × 8 grid, and the frame of the whole program. The proof data: each array
  of the launch as the launch finds it; after the body at grid point `t` the two input buffers still hold their blocks
  and the output buffer holds the body's value of those two blocks. With the body's triple at every point this gives
  the run of @main — lines, launch, lines — to a state where each array of the launch holds what the write-backs
  left and every other buffer what the later host lines leave; the two argument arrays are among the latter and are
  written by no one.
-/
import proofs.«105715_j81286551044362_2_alg».proof.Proof.HostBits
import proofs.«105715_j81286551044362_2_alg».proof.Proof.BodyBits

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Host Cert.Kernel.Body

variable (m : (ℓ : Loc nD τ sig) → Buf (Elt F) ℓ) (ρ : Dev nD → PrngReg)

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input buffer holds its window's block when the body starts, at every grid point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is handed at grid point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any grid point: its input buffers hold their blocks, so the body's triple applies; the rest passes
    through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates without a fault, each array of the launch ending at what the
    write-backs left in it and every other buffer at what the host lines after the launch leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame of `Kernel`: it runs to the end, faults nowhere, and leaves both argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Run

end
-- ==== Proof.HostIdeal.lean ====
/-
  The host side of the frame of `KernelIdeal`'s @main: the program is nine stretches of host lines (four input chunks
  sliced, reshaped, transposed and zero-padded to eight rows, then stacked along a new leading axis, and the weights
  reshaped to [4, 4096, 4096]), ONE kernel launch over a 4 × 8 grid, and seventeen host lines that cut the four
  results back out and join them. Here: the buffer contents the launch finds (the fold of the lines before it over
  the start memory), that @main is "lines, launch, lines", that the later lines touch only what they may and write
  no array of the launch, that neither argument array is ever written, and each window's block at a grid point.
-/
import proofs.«105715_j81286551044362_2_alg».proof.Proof.Gen.KernelIdeal.Launch
import proofs.«105715_j81286551044362_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Host

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the launch -/

/-- Core `c`'s buffer contents when the kernel is launched: the nine stretches of host lines before it, folded
    over the start memory. -/
abbrev V0 (c : Dev nD) : Valuation τ sig (Elt F) := StableHlo.after (List.flatten [hostOps0, hostOps0_1, hostOps0_2, hostOps0_3, hostOps0_4, hostOps0_5, hostOps0_6, hostOps0_7, hostOps0_8]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the host lines before the launch, the launch, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The lines after the launch touch only the launch's arrays and buffers the launch leaves alone. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes only its own result buffer, which is none of the launch's three arrays. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host line before the launch writes `main_arg0`: the launch finds it as the program was started with. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes `main_arg1`: the launch finds it as the program was started with. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the launch writes `main_arg0` either, and it is no array of the launch: it ends as started. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line after the launch writes `main_arg1` either, and it is no array of the launch: it ends as started. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, cut out of the window's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every grid point, whether the pipeline
    fetched it at that point or kept it from the point before (the block index had not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the window's block at every grid point, whether the pipeline
    fetched it at that point or kept it from the point before (the block index had not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the launch -/

/-- A run that ends with every array of the launch at what the proof data says and every other buffer as the later
    host lines leave it ends with both argument arrays unchanged: they are no array of the launch and no host
    line writes them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

end Cert.KernelIdeal.Host

end
-- ==== Proof.BodyIdeal.lean ====
/-
  One grid point of `KernelIdeal`'s kernel: the body reads its whole [1, 8, 4096] input block and its whole
  [1, 4096, 512] weight block, reads (and ignores) what its [1, 8, 512] output buffer held, and overwrites that buffer
  whole with ONE value computed from the two blocks — the product of the 8 × 4096 and 4096 × 512 matrices, scaled.
  So after the body the two input buffers are as they were and the output buffer holds that value, whatever it held
  before.
-/
import proofs.«105715_j81286551044362_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is its whole buffer -/

abbrev r0_0 : Rect S1x8x4096 := Rect.unit (s := S1x8x4096) ![0, 0, 0] S1x8x4096.size inb_S1x8x4096_S1x8x4096_0_0_0
abbrev r0_1 : Rect S1x4096x512 := Rect.unit (s := S1x4096x512) ![0, 0, 0] S1x4096x512.size inb_S1x4096x512_S1x4096x512_0_0_0
abbrev r0_2 : Rect S1x8x512 := Rect.unit (s := S1x8x512) ![0, 0, 0] S1x8x512.size inb_S1x8x512_S1x8x512_0_0_0

/-- What the output buffer holds after the body, from the two input blocks: its one store, of the scaled matrix
    product of what the two loads read. -/
def out0_2 (x0 : Vec F S1x8x4096 .f32) (x1 : Vec F S1x4096x512 .f32) : Vec F S1x8x512 .f32 :=
  View.canon [⟨r0_2, k0_pay1 (View.ld x0 r0_0) (View.ld x1 r0_1)⟩]

/-- The one store covers the output buffer. -/
theorem cover0_2 (p0 : Vec F S1x8x512 .f32) (y : S1x8x512.Idx) :
    ∃ pc ∈ ([⟨r0_2, p0⟩] : List (View.Piece (Elt F) S1x8x512 .f32)), y ∈ pc.1.set :=
  View.cover_of_tiled [⟨r0_2, p0⟩] S1x8x512.size (by rfl) y

set_option maxHeartbeats 1000000 in
/-- The body, on whole buffers holding `x0`, `x1` and anything, runs without a fault to a state with the two
    inputs unchanged and the output buffer at `out0_2 x0 x1`. -/
theorem sound_kernel (c : Dev nD) (E : Set ℕ) (i : grid0.Coords)
    (arg2 : Memref sig .tc .vmem S1x8x4096 .f32) (harg2 : arg2.IsWhole)
    (arg3 : Memref sig .tc .vmem S1x4096x512 .f32) (harg3 : arg3.IsWhole)
    (arg4 : Memref sig .tc .vmem S1x8x512 .f32) (harg4 : arg4.IsWhole)
    (x0 : Vec F S1x8x4096 .f32) (x1 : Vec F S1x4096x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__fused_kernel i arg2 harg2 arg3 harg3 arg4 harg4) K := by
  simp only [cc0__fused_kernel_eq_skeleton]; unfold cc0__fused_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.KernelIdeal.Body

end
-- ==== Proof.RunIdeal.lean ====
/-
  The launch of `KernelIdeal`'s kernel over its 4 × 8 grid, and the frame of the whole program. The proof data: each array
  of the launch as the launch finds it; after the body at grid point `t` the two input buffers still hold their blocks
  and the output buffer holds the body's value of those two blocks. With the body's triple at every point this gives
  the run of @main — lines, launch, lines — to a state where each array of the launch holds what the write-backs
  left and every other buffer what the later host lines leave; the two argument arrays are among the latter and are
  written by no one.
-/
import proofs.«105715_j81286551044362_2_alg».proof.Proof.HostIdeal
import proofs.«105715_j81286551044362_2_alg».proof.Proof.BodyIdeal

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Host Cert.KernelIdeal.Body

variable (m : (ℓ : Loc nD τ sig) → Buf (Elt F) ℓ) (ρ : Dev nD → PrngReg)

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input buffer holds its window's block when the body starts, at every grid point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is handed at grid point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any grid point: its input buffers hold their blocks, so the body's triple applies; the rest passes
    through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates without a fault, each array of the launch ending at what the
    write-backs left in it and every other buffer at what the host lines after the launch leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame of `KernelIdeal`: it runs to the end, faults nowhere, and leaves both argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Run

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLayout3.lean ====
/-
  Layout operations on rank-3 arrays read at an index written by coordinates.

  Merging the two leading axes of an [a, b, c] array into one of extent a·b (and splitting it back) keeps entry
  (p, q, e) at row p·b + q; inserting a unit middle axis keeps (p, e) at (p, 0, e); broadcasting along that unit
  axis reads (p, 0, e) at every (p, q, e); a unit-stride slice along the last axis from offset o reads the source
  at last coordinate o + j.
-/
import Idealize.ShloMosaic.Lib.Pipeline.Value
import Idealize.ShloMosaic.Lib.ValueIdx

namespace Cert.LibLayout3

open Idealize.ShloMosaic Idealize.ShloMosaic.ValueIdx

variable {α : Type}

/-- An [a, b, c] array cast to an [m, c] matrix (m = a·b) reads, at row r = p·b + q, the array at (p, q, ·). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (e : Fin c) (r : Fin m)
    (hr : r.val = p.val * b + q.val) :
    shapeCast ⟨2, ![m, c]⟩ x h (ix2 r e) = x (ix3 p q e) :=
  shapeCast_apply x h _ _ (by
    rw [Shape.rowMajor_val_three, Shape.rowMajor_val_two]
    show (p.val * b + q.val) * c + e.val = r.val * c + e.val
    rw [hr])

/-- An [m, c] matrix (m = a·b) cast to an [a, b, c] array reads, at (p, q, ·), the matrix at row r = p·b + q. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (e : Fin c) (r : Fin m)
    (hr : r.val = p.val * b + q.val) :
    shapeCast ⟨3, ![a, b, c]⟩ x h (ix3 p q e) = x (ix2 r e) :=
  shapeCast_apply x h _ _ (by
    rw [Shape.rowMajor_val_two, Shape.rowMajor_val_three]
    show r.val * c + e.val = (p.val * b + q.val) * c + e.val
    rw [hr])

/-- An [a, c] matrix cast to [a, 1, c] reads, at (p, u, e), the matrix at (p, e). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    have hu : u.val = 0 := by omega
    rw [Shape.rowMajor_val_two, Shape.rowMajor_val_three]
    show p.val * c + e.val = (p.val * 1 + u.val) * c + e.val
    rw [hu, Nat.mul_one, Nat.add_zero])

/-- An [a, 1, c] array broadcast along its unit axis to [a, b, c] reads, at (p, q, e), the operand at (p, 0, e). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

/-- A rank-3 array cut along its last axis from o reads, at (a, b, j), the source at (a, b, k) with k = o + j. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.LibLayout3
-- ==== Proof.Payload.lean ====
/-
  The value one grid point stores, read at an entry. The body casts its [1, 8, 4096] input block to an 8 × 4096 matrix
  and its [1, 4096, 512] weight block to a 4096 × 512 matrix (the narrowing to a shorter float format on the way into
  the matrix unit changes nothing at the exact reading), multiplies them into a zero accumulator, scales every entry
  by one constant and casts the 8 × 512 result back to [1, 8, 512]. So entry (0, i, q) of what it stores is
      (Σ_{u < 4096} x[0, i, u] · w[0, u, q]) · scale.
-/
import proofs.«105715_j81286551044362_2_alg».proof.Proof.Gen.KernelIdeal.Skeleton
import proofs.«105715_j81286551044362_2_alg».proof.Proof.LibPlainContract
import proofs.«105715_j81286551044362_2_alg».proof.Proof.LibLayout3
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx

/-- The constant every entry of the product is scaled by (the float whose word is 0x3C800000), as an extended real. -/
abbrev scale : EReal := Ideal.ofBits .f32 0x3C800000#32

/-- Entry (0, i, q) of the stored value is the scaled inner product of row i of the input block with column q of the
    weight block. -/
theorem pay_apply (v0 : Vec Ideal S1x8x4096 .f32) (v3 : Vec Ideal S1x4096x512 .f32) (i : Fin 8) (q : Fin 512) :
    k0_pay1 (F := Ideal) v0 v3 (ix3 (0 : Fin 1) i q)
      = (∑ u : Fin 4096, v0 (ix3 (0 : Fin 1) i u) * v3 (ix3 (0 : Fin 1) u q)) * scale := by
  simp only [k0_pay1]
  refine (Cert.LibLayout3.shapeCast_mc_abc_apply (a := 1) (b := 8) (c := 512) (m := 8) _ _ (0 : Fin 1) i q i (by simp)).trans ?_
  refine (mulf_apply _ _ _).trans ?_
  refine congrArg₂ (fun a b : EReal => a * b) ?_ rfl
  refine (Cert.LibPlainContract.matmul_plain_apply 8 4096 512 none _ _ i q).trans ?_
  refine Finset.sum_congr rfl fun u _ => congrArg₂ (fun a b : EReal => a * b) ?_ ?_
  · exact Cert.LibLayout3.shapeCast_abc_mc_apply (a := 1) (b := 8) (c := 4096) (m := 8) v0 _ (0 : Fin 1) i u i (by simp)
  · exact Cert.LibLayout3.shapeCast_abc_mc_apply (a := 1) (b := 4096) (c := 512) (m := 4096) v3 _ (0 : Fin 1) u q u (by simp)

end Cert.KernelIdeal.Payload

end
-- ==== Proof.Blocks.lean ====
/-
  From the launch's 32 write-backs to its whole result array. Grid point (p, n) writes back the [1, 8, 512] block at
  block index (p, 0, n) of the [4, 8, 4096] result; it read block (p, 0, 0) of the stacked input and block (p, 0, n)
  of the weights. With the stored value read at an entry this says: block (p, 0, n) of the result is the restriction
  to that block of ONE function of the two operand arrays,
      result[p, i, v] = (Σ_{u < 4096} X[p, i, u] · W[p, u, v]) · scale,
  and the 32 blocks cover the array, so the array the launch leaves IS that function.
-/
import proofs.«105715_j81286551044362_2_alg».proof.Proof.RunIdeal
import proofs.«105715_j81286551044362_2_alg».proof.Proof.Payload
import Idealize.ShloMosaic.Lib.Pipeline.Value

set_option maxRecDepth 16384

noncomputable section

namespace Cert.KernelIdeal.Blocks

open Cert.KernelIdeal Cert.KernelIdeal.Gen Cert.KernelIdeal.Host Cert.KernelIdeal.Body Cert.KernelIdeal.Run Cert.KernelIdeal.Payload
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- Entry (p, i, v) of the launch's result as a function of its two operand arrays. -/
def outAt (X : S4x8x4096.Idx → EReal) (W : S4x4096x4096.Idx → EReal) (p : Fin 4) (i : Fin 8) (v : Fin 4096) : EReal :=
  (∑ u : Fin 4096, X (ix3 p i u) * W (ix3 p u v)) * scale

/-- The whole result array. -/
def outArr (X : S4x8x4096.Idx → EReal) (W : S4x4096x4096.Idx → EReal) : S4x8x4096.Idx → EReal :=
  fun j => outAt X W (j 0) (j 1) (j 2)

theorem zero3 : (![0, 0, 0] : Fin 3 → Nat) = fun _ => 0 := funext fun a => by fin_cases a <;> rfl

/-- The three index maps over the grid: the input block follows the result's leading block index and sits at 0 on
    the other axes; the weight block follows the result's leading and last block indices; the result's middle block
    index is 0, its leading one below 4 and its last one below 8. -/
theorem index_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0
    ∧ win0_1.index t (2 : Fin 3) = win0_2.index t (2 : Fin 3)
    ∧ win0_2.index t (1 : Fin 3) = 0 ∧ win0_2.index t (0 : Fin 3) ≤ 3 ∧ win0_2.index t (2 : Fin 3) ≤ 7 :=
  (by decide +kernel : ∀ t : Fin grid0.N, _)

/-- Every block index (p, 0, n) is some grid point's. -/
theorem index_onto : ∀ (q0 : Fin 4) (q2 : Fin 8), ∃ t : Fin cfg0.N, win0_2.index t = ![q0.val, 0, q2.val] :=
  (by decide +kernel : ∀ (q0 : Fin 4) (q2 : Fin 8), ∃ t : Fin grid0.N, win0_2.index t = ![q0.val, 0, q2.val])

/-- One block, over plain variables: if `x0` is rows block `p` of `X` and `x1` is block (p, ·, n) of `W`, the stored
    value at (0, i, q) is the result function at (p, i, n·512 + q). -/
theorem block_entry (X : S4x8x4096.Idx → EReal) (W : S4x4096x4096.Idx → EReal)
    (x0 : Vec Ideal S1x8x4096 .f32) (x1 : Vec Ideal S1x4096x512 .f32) (p : Fin 4) (n : Nat)
    (hx0 : ∀ (i : Fin 8) (u : Fin 4096), x0 (ix3 (0 : Fin 1) i u) = X (ix3 p i u))
    (hx1 : ∀ (u : Fin 4096) (q : Fin 512) (v : Fin 4096), v.val = n * 512 + q.val → x1 (ix3 (0 : Fin 1) u q) = W (ix3 p u v))
    (i : Fin 8) (q : Fin 512) (v : Fin 4096) (hv : v.val = n * 512 + q.val) :
    k0_pay1 (F := Ideal) x0 x1 (ix3 (0 : Fin 1) i q) = outAt X W p i v := by
  refine (pay_apply x0 x1 i q).trans ?_
  unfold outAt
  refine congrArg (fun s : EReal => s * scale) (Finset.sum_congr rfl fun u _ => ?_)
  rw [hx0 i u, hx1 u q v hv]

/-- What grid point `t` writes back is block `t` of the result function of the two operand arrays. -/
theorem flushed_eq (c : Dev nD) (t : Fin cfg0.N) :
    (dats m 0 c).flushed 2 t = ((cfg0.win 2).blk t).view.read (Elt Ideal) (outArr (V m c main_v20) (V m c main_v21)) := by
  show (cfg0.win 2).cut (grid0.coords t) ((dats m 0 c).after 2 t) = _
  rw [after0_2]
  unfold out0_2
  rw [View.canon_unit_zero zero3]
  simp only [View.ld_unit_zero (S := S1x8x4096) zero3, View.ld_unit_zero (S := S1x4096x512) zero3]
  obtain ⟨e00, e01, e02, e10, e11, e12, e21, b0, b2⟩ := index_facts t
  funext y
  show k0_pay1 (F := Ideal) (iblk m c 0 t) (iblk m c 1 t) y
    = outArr (V m c main_v20) (V m c main_v21) (((cfg0.win 2).blk t).view.emb y)
  have hy0 : (y 0).val < 1 := (y 0).isLt
  have hy1 : (y 1).val < 8 := (y 1).isLt
  have hy2 : (y 2).val < 512 := (y 2).isLt
  have hy : (y : S1x8x512.Idx) = ix3 (0 : Fin 1) (⟨(y 1).val, hy1⟩ : Fin 8) (⟨(y 2).val, hy2⟩ : Fin 512) := funext fun a => by
    match a with
    | ⟨0, _⟩ => exact Fin.ext (by show (y 0).val = 0; omega)
    | ⟨1, _⟩ => rfl
    | ⟨2, _⟩ => rfl
  refine (congrArg (k0_pay1 (F := Ideal) (iblk m c 0 t) (iblk m c 1 t)) hy).trans ?_
  refine (block_entry (V m c main_v20) (V m c main_v21) (iblk m c 0 t) (iblk m c 1 t)
    (⟨win0_2.index t (0 : Fin 3), by omega⟩ : Fin 4) (win0_2.index t (2 : Fin 3)) ?_ ?_
    (⟨(y 1).val, hy1⟩ : Fin 8) (⟨(y 2).val, hy2⟩ : Fin 512)
    (⟨win0_2.index t (2 : Fin 3) * 512 + (y 2).val, by omega⟩ : Fin 4096) rfl).trans ?_
  · -- the input block is rows block p of the stacked input
    intro i u
    show V m c main_v20 (((cfg0.win 0).blk t).view.emb (ix3 (0 : Fin 1) i u)) = _
    refine congrArg (V m c main_v20) (funext fun a => Fin.ext ?_)
    match a with
    | ⟨0, _⟩ => show win0_0.index t (0 : Fin 3) * 1 + 1 * 0 = win0_2.index t (0 : Fin 3); omega
    | ⟨1, _⟩ => show win0_0.index t (1 : Fin 3) * 8 + 1 * i.val = i.val; omega
    | ⟨2, _⟩ => show win0_0.index t (2 : Fin 3) * 4096 + 1 * u.val = u.val; omega
  · -- the weight block is block (p, ·, n) of the weights
    intro u q v hv
    show V m c main_v21 (((cfg0.win 1).blk t).view.emb (ix3 (0 : Fin 1) u q)) = _
    refine congrArg (V m c main_v21) (funext fun a => Fin.ext ?_)
    match a with
    | ⟨0, _⟩ => show win0_1.index t (0 : Fin 3) * 1 + 1 * 0 = win0_2.index t (0 : Fin 3); omega
    | ⟨1, _⟩ => show win0_1.index t (1 : Fin 3) * 4096 + 1 * u.val = u.val; omega
    | ⟨2, _⟩ => show win0_1.index t (2 : Fin 3) * 512 + 1 * q.val = v.val; omega
  · -- and (p, i, n·512 + q) is where the block's entry (0, i, q) sits in the array
    unfold outArr
    have h0 : (⟨win0_2.index t (0 : Fin 3), by omega⟩ : Fin 4) = (((cfg0.win 2).blk t).view.emb y) 0 :=
      Fin.ext (by show win0_2.index t (0 : Fin 3) = win0_2.index t (0 : Fin 3) * 1 + 1 * (y 0).val; omega)
    have h1 : (⟨(y 1).val, hy1⟩ : Fin 8) = (((cfg0.win 2).blk t).view.emb y) 1 :=
      Fin.ext (by show (y 1).val = win0_2.index t (1 : Fin 3) * 8 + 1 * (y 1).val; omega)
    have h2 : (⟨win0_2.index t (2 : Fin 3) * 512 + (y 2).val, by omega⟩ : Fin 4096) = (((cfg0.win 2).blk t).view.emb y) 2 :=
      Fin.ext (by show win0_2.index t (2 : Fin 3) * 512 + (y 2).val = win0_2.index t (2 : Fin 3) * 512 + 1 * (y 2).val; omega)
    rw [h0, h1, h2]

/-- An index of the result array is in grid point `t`'s block iff each coordinate is in the block's range. -/
theorem mem_blk (t : Fin cfg0.N) (i : S4x8x4096.Idx) :
    i ∈ ((cfg0.win 2).blk t).view.set ↔ ∀ a : Fin 3, win0_2.index t a * S1x8x512.size a ≤ (i a).val ∧ (i a).val < win0_2.index t a * S1x8x512.size a + S1x8x512.size a := by
  show i ∈ ((View.whole main_v22).slice (win0_2.rect t)).set ↔ _
  rw [View.set_slice_whole, Rect.mem_set_unit]
  exact Iff.rfl

/-- Every index of the result array lies in the block of the grid point (i₀, i₂ / 512), which writes back. -/
theorem covered (i : S4x8x4096.Idx) :
    ∃ t : Fin cfg0.N, (cfg0.win 2).flush t = true ∧ i ∈ ((cfg0.win 2).blk t).view.set := by
  have hi0 : (i 0).val < 4 := (i 0).isLt
  have hi1 : (i 1).val < 8 := (i 1).isLt
  have hi2 : (i 2).val < 4096 := (i 2).isLt
  obtain ⟨t, ht⟩ := index_onto ⟨(i 0).val, hi0⟩ ⟨(i 2).val / 512, by omega⟩
  have q0 : win0_2.index t (0 : Fin 3) = (i 0).val := congrFun ht 0
  have q1 : win0_2.index t (1 : Fin 3) = 0 := congrFun ht 1
  have q2 : win0_2.index t (2 : Fin 3) = (i 2).val / 512 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 512 ≤ (i 2).val ∧ (i 2).val < win0_2.index t (2 : Fin 3) * 512 + 512; omega

/-- The array the launch leaves is the result function of the two operand arrays as the launch found them. -/
theorem final (c : Dev nD) : (dats m 0 c).arrAt 2 cfg0.N = outArr (V m c main_v20) (V m c main_v21) :=
  (dats m 0 c).arrAt_eq_of_cover 2 (outArr (V m c main_v20) (V m c main_v21)) (fun t _ => flushed_eq m c t) covered

end Cert.KernelIdeal.Blocks

end
-- ==== Proof.HostIn.lean ====
/-
  What the launch is handed. The host lines before it cut the input into four chunks of 4096·d entries (d = 1, 3, 5,
  7), lay chunk p out as a 4096 × d matrix, transpose it, pad it with zero rows to 8 × 4096 and stack the four along a
  new leading axis; the weights are reshaped to four 4096 × 4096 matrices. Read at an entry: for i < d,
      stacked[p, i, u] = chunk_p[u, i],        weights[p, u, v] = w[p·4096² + u·4096 + v].
-/
import proofs.«105715_j81286551044362_2_alg».proof.Proof.HostIdeal
import Idealize.ShloMosaic.Lib.StableHlo.Run
import Idealize.ShloMosaic.Lib.Pipeline.Value
import Idealize.ShloMosaic.Lib.KernelVsHost
import Idealize.ShloMosaic.Lib.ValueIdx
import Idealize.ShloMosaic.PureOps.Ideal
import Idealize.ShloMosaic.PureOps.Ideal.Laws

set_option maxRecDepth 16384

noncomputable section

namespace Cert.KernelIdeal.HostIn

open Cert.KernelIdeal Cert.KernelIdeal.Gen Cert.KernelIdeal.Host
open Idealize.ShloMosaic Idealize.ShloMosaic.TcCoe Idealize.ShloMosaic.ValueIdx Idealize.SL.Sem Idealize.ShloMosaic.StableHlo

/-- Chunk 0 of the input: 4096 entries from offset 0, laid out as a 4096 × 1 matrix. -/
def mat0 (x0 : S65536.Idx → EReal) : S4096x1.Idx → EReal :=
  shapeCast S4096x1 (extractStridedSlice S4096 ![0] x0 slices_S65536_S4096_0) shapeCasts_S4096_S4096x1
/-- Its transpose, zero-padded from 1 to 8 rows. -/
def rows0 (x0 : S65536.Idx → EReal) : S8x4096.Idx → EReal :=
  pad S8x4096 ![0, 0] ![7, 0] ![0, 0] (transpose S1x4096 [1, 0] (mat0 x0) transposes_S4096x1_S1x4096_1_0)
    (sitofp (F := Ideal) .f32 (constantI S_ 32 0#32)) pads_S1x4096_S8x4096_070_000 h_S_
/-- Chunk 1 of the input: 12288 entries from offset 4096, laid out as a 4096 × 3 matrix. -/
def mat1 (x0 : S65536.Idx → EReal) : S4096x3.Idx → EReal :=
  shapeCast S4096x3 (extractStridedSlice S12288 ![4096] x0 slices_S65536_S12288_4096) shapeCasts_S12288_S4096x3
/-- Its transpose, zero-padded from 3 to 8 rows. -/
def rows1 (x0 : S65536.Idx → EReal) : S8x4096.Idx → EReal :=
  pad S8x4096 ![0, 0] ![5, 0] ![0, 0] (transpose S3x4096 [1, 0] (mat1 x0) transposes_S4096x3_S3x4096_1_0)
    (sitofp (F := Ideal) .f32 (constantI S_ 32 0#32)) pads_S3x4096_S8x4096_050_000 h_S_
/-- Chunk 2 of the input: 20480 entries from offset 16384, laid out as a 4096 × 5 matrix. -/
def mat2 (x0 : S65536.Idx → EReal) : S4096x5.Idx → EReal :=
  shapeCast S4096x5 (extractStridedSlice S20480 ![16384] x0 slices_S65536_S20480_16384) shapeCasts_S20480_S4096x5
/-- Its transpose, zero-padded from 5 to 8 rows. -/
def rows2 (x0 : S65536.Idx → EReal) : S8x4096.Idx → EReal :=
  pad S8x4096 ![0, 0] ![3, 0] ![0, 0] (transpose S5x4096 [1, 0] (mat2 x0) transposes_S4096x5_S5x4096_1_0)
    (sitofp (F := Ideal) .f32 (constantI S_ 32 0#32)) pads_S5x4096_S8x4096_030_000 h_S_
/-- Chunk 3 of the input: 28672 entries from offset 36864, laid out as a 4096 × 7 matrix. -/
def mat3 (x0 : S65536.Idx → EReal) : S4096x7.Idx → EReal :=
  shapeCast S4096x7 (extractStridedSlice S28672 ![36864] x0 slices_S65536_S28672_36864) shapeCasts_S28672_S4096x7
/-- Its transpose, zero-padded from 7 to 8 rows. -/
def rows3 (x0 : S65536.Idx → EReal) : S8x4096.Idx → EReal :=
  pad S8x4096 ![0, 0] ![1, 0] ![0, 0] (transpose S7x4096 [1, 0] (mat3 x0) transposes_S4096x7_S7x4096_1_0)
    (sitofp (F := Ideal) .f32 (constantI S_ 32 0#32)) pads_S7x4096_S8x4096_010_000 h_S_

/-- The four padded chunks, each given a leading unit axis. -/
abbrev slabs (x0 : S65536.Idx → EReal) : List ((s : Shape) × (s.Idx → EReal)) :=
  [⟨S1x8x4096, broadcastInDim S1x8x4096 ![1, 2] bcast_S8x4096_S1x8x4096_1_2 (rows0 x0)⟩,
   ⟨S1x8x4096, broadcastInDim S1x8x4096 ![1, 2] bcast_S8x4096_S1x8x4096_1_2 (rows1 x0)⟩,
   ⟨S1x8x4096, broadcastInDim S1x8x4096 ![1, 2] bcast_S8x4096_S1x8x4096_1_2 (rows2 x0)⟩,
   ⟨S1x8x4096, broadcastInDim S1x8x4096 ![1, 2] bcast_S8x4096_S1x8x4096_1_2 (rows3 x0)⟩]

/-- They are stacked along that axis: the kernel's first operand. -/
def stacked (x0 : S65536.Idx → EReal) : S4x8x4096.Idx → EReal :=
  concatenate S4x8x4096 0 (slabs x0) concatenates_S1x8x4096_S1x8x4096_S1x8x4096_S1x8x4096_S4x8x4096_d0

/-- The weights as four 4096 × 4096 matrices: the kernel's second operand. -/
def weights3 (x1 : S67108864.Idx → EReal) : S4x4096x4096.Idx → EReal :=
  shapeCast S4x4096x4096 x1 shapeCasts_S67108864_S4x4096x4096

variable (m : (ℓ : Loc nD τ sig) → Buf (Elt Ideal) ℓ)

/-- The launch finds its first operand at the stack of the padded chunks of the input argument … -/
theorem found_stacked (c : Dev nD) : (V m c main_v20 : S4x8x4096.Idx → EReal) = stacked (m ((c : Thread nD τ).loc main_arg0)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- … and its second at the reshaped weights argument. -/
theorem found_weights (c : Dev nD) : (V m c main_v21 : S4x4096x4096.Idx → EReal) = weights3 (m ((c : Thread nD τ).loc main_arg1)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- Row i < 1 of slab 0 of the stacked input is column i of chunk 0's matrix: the padding rows are not reached. -/
theorem stacked_read0 (x0 : S65536.Idx → EReal) (i : Fin 1) (u : Fin 4096) :
    stacked x0 (ix3 (0 : Fin 4) (⟨i.val, by omega⟩ : Fin 8) u) = mat0 x0 (ix2 u i) := by
  unfold stacked
  refine (concatenate_apply_piece (t := S4x8x4096) (0 : Fin 3) (slabs x0) concatenates_S1x8x4096_S1x8x4096_S1x8x4096_S1x8x4096_S4x8x4096_d0
    (ix3 (0 : Fin 4) (⟨i.val, by omega⟩ : Fin 8) u) 0 (by show 0 < 4; omega) S1x8x4096
    (broadcastInDim S1x8x4096 ![1, 2] bcast_S8x4096_S1x8x4096_1_2 (rows0 x0)) rfl rfl 0 (by first | rfl | simp)
    (ix3 (0 : Fin 1) (⟨i.val, by omega⟩ : Fin 8) u)
    (fun b hb => by
      match b with
      | ⟨0, _⟩ => exact absurd rfl hb
      | ⟨1, _⟩ => rfl
      | ⟨2, _⟩ => rfl) rfl).trans ?_
  refine (broadcastInDim_apply ![1, 2] _ (rows0 x0) (ix3 (0 : Fin 1) (⟨i.val, by omega⟩ : Fin 8) u) (ix2 (⟨i.val, by omega⟩ : Fin 8) u)
    (fun a => by
      match a with
      | ⟨0, _⟩ => rfl
      | ⟨1, _⟩ => rfl)).trans ?_
  unfold rows0
  refine (pad_apply_of_inside ![0, 0] ![7, 0] ![0, 0] _ _ _ _ (ix2 (⟨i.val, by omega⟩ : Fin 8) u) (ix2 i u)
    (fun a => by
      match a with
      | ⟨0, _⟩ => show i.val = 0 + i.val * (0 + 1); omega
      | ⟨1, _⟩ => show u.val = 0 + u.val * (0 + 1); omega)).trans ?_
  exact transpose_apply [1, 0] (mat0 x0) _ (ix2 i u) (ix2 u i)
    (fun b => by
      match b with
      | ⟨0, _⟩ => rfl
      | ⟨1, _⟩ => rfl)

/-- Row i < 3 of slab 1 of the stacked input is column i of chunk 1's matrix: the padding rows are not reached. -/
theorem stacked_read1 (x0 : S65536.Idx → EReal) (i : Fin 3) (u : Fin 4096) :
    stacked x0 (ix3 (1 : Fin 4) (⟨i.val, by omega⟩ : Fin 8) u) = mat1 x0 (ix2 u i) := by
  unfold stacked
  refine (concatenate_apply_piece (t := S4x8x4096) (0 : Fin 3) (slabs x0) concatenates_S1x8x4096_S1x8x4096_S1x8x4096_S1x8x4096_S4x8x4096_d0
    (ix3 (1 : Fin 4) (⟨i.val, by omega⟩ : Fin 8) u) 1 (by show 1 < 4; omega) S1x8x4096
    (broadcastInDim S1x8x4096 ![1, 2] bcast_S8x4096_S1x8x4096_1_2 (rows1 x0)) rfl rfl 1 (by first | rfl | simp)
    (ix3 (0 : Fin 1) (⟨i.val, by omega⟩ : Fin 8) u)
    (fun b hb => by
      match b with
      | ⟨0, _⟩ => exact absurd rfl hb
      | ⟨1, _⟩ => rfl
      | ⟨2, _⟩ => rfl) rfl).trans ?_
  refine (broadcastInDim_apply ![1, 2] _ (rows1 x0) (ix3 (0 : Fin 1) (⟨i.val, by omega⟩ : Fin 8) u) (ix2 (⟨i.val, by omega⟩ : Fin 8) u)
    (fun a => by
      match a with
      | ⟨0, _⟩ => rfl
      | ⟨1, _⟩ => rfl)).trans ?_
  unfold rows1
  refine (pad_apply_of_inside ![0, 0] ![5, 0] ![0, 0] _ _ _ _ (ix2 (⟨i.val, by omega⟩ : Fin 8) u) (ix2 i u)
    (fun a => by
      match a with
      | ⟨0, _⟩ => show i.val = 0 + i.val * (0 + 1); omega
      | ⟨1, _⟩ => show u.val = 0 + u.val * (0 + 1); omega)).trans ?_
  exact transpose_apply [1, 0] (mat1 x0) _ (ix2 i u) (ix2 u i)
    (fun b => by
      match b with
      | ⟨0, _⟩ => rfl
      | ⟨1, _⟩ => rfl)

/-- Row i < 5 of slab 2 of the stacked input is column i of chunk 2's matrix: the padding rows are not reached. -/
theorem stacked_read2 (x0 : S65536.Idx → EReal) (i : Fin 5) (u : Fin 4096) :
    stacked x0 (ix3 (2 : Fin 4) (⟨i.val, by omega⟩ : Fin 8) u) = mat2 x0 (ix2 u i) := by
  unfold stacked
  refine (concatenate_apply_piece (t := S4x8x4096) (0 : Fin 3) (slabs x0) concatenates_S1x8x4096_S1x8x4096_S1x8x4096_S1x8x4096_S4x8x4096_d0
    (ix3 (2 : Fin 4) (⟨i.val, by omega⟩ : Fin 8) u) 2 (by show 2 < 4; omega) S1x8x4096
    (broadcastInDim S1x8x4096 ![1, 2] bcast_S8x4096_S1x8x4096_1_2 (rows2 x0)) rfl rfl 2 (by first | rfl | simp)
    (ix3 (0 : Fin 1) (⟨i.val, by omega⟩ : Fin 8) u)
    (fun b hb => by
      match b with
      | ⟨0, _⟩ => exact absurd rfl hb
      | ⟨1, _⟩ => rfl
      | ⟨2, _⟩ => rfl) rfl).trans ?_
  refine (broadcastInDim_apply ![1, 2] _ (rows2 x0) (ix3 (0 : Fin 1) (⟨i.val, by omega⟩ : Fin 8) u) (ix2 (⟨i.val, by omega⟩ : Fin 8) u)
    (fun a => by
      match a with
      | ⟨0, _⟩ => rfl
      | ⟨1, _⟩ => rfl)).trans ?_
  unfold rows2
  refine (pad_apply_of_inside ![0, 0] ![3, 0] ![0, 0] _ _ _ _ (ix2 (⟨i.val, by omega⟩ : Fin 8) u) (ix2 i u)
    (fun a => by
      match a with
      | ⟨0, _⟩ => show i.val = 0 + i.val * (0 + 1); omega
      | ⟨1, _⟩ => show u.val = 0 + u.val * (0 + 1); omega)).trans ?_
  exact transpose_apply [1, 0] (mat2 x0) _ (ix2 i u) (ix2 u i)
    (fun b => by
      match b with
      | ⟨0, _⟩ => rfl
      | ⟨1, _⟩ => rfl)

/-- Row i < 7 of slab 3 of the stacked input is column i of chunk 3's matrix: the padding rows are not reached. -/
theorem stacked_read3 (x0 : S65536.Idx → EReal) (i : Fin 7) (u : Fin 4096) :
    stacked x0 (ix3 (3 : Fin 4) (⟨i.val, by omega⟩ : Fin 8) u) = mat3 x0 (ix2 u i) := by
  unfold stacked
  refine (concatenate_apply_piece (t := S4x8x4096) (0 : Fin 3) (slabs x0) concatenates_S1x8x4096_S1x8x4096_S1x8x4096_S1x8x4096_S4x8x4096_d0
    (ix3 (3 : Fin 4) (⟨i.val, by omega⟩ : Fin 8) u) 3 (by show 3 < 4; omega) S1x8x4096
    (broadcastInDim S1x8x4096 ![1, 2] bcast_S8x4096_S1x8x4096_1_2 (rows3 x0)) rfl rfl 3 (by first | rfl | simp)
    (ix3 (0 : Fin 1) (⟨i.val, by omega⟩ : Fin 8) u)
    (fun b hb => by
      match b with
      | ⟨0, _⟩ => exact absurd rfl hb
      | ⟨1, _⟩ => rfl
      | ⟨2, _⟩ => rfl) rfl).trans ?_
  refine (broadcastInDim_apply ![1, 2] _ (rows3 x0) (ix3 (0 : Fin 1) (⟨i.val, by omega⟩ : Fin 8) u) (ix2 (⟨i.val, by omega⟩ : Fin 8) u)
    (fun a => by
      match a with
      | ⟨0, _⟩ => rfl
      | ⟨1, _⟩ => rfl)).trans ?_
  unfold rows3
  refine (pad_apply_of_inside ![0, 0] ![1, 0] ![0, 0] _ _ _ _ (ix2 (⟨i.val, by omega⟩ : Fin 8) u) (ix2 i u)
    (fun a => by
      match a with
      | ⟨0, _⟩ => show i.val = 0 + i.val * (0 + 1); omega
      | ⟨1, _⟩ => show u.val = 0 + u.val * (0 + 1); omega)).trans ?_
  exact transpose_apply [1, 0] (mat3 x0) _ (ix2 i u) (ix2 u i)
    (fun b => by
      match b with
      | ⟨0, _⟩ => rfl
      | ⟨1, _⟩ => rfl)

/-- Entry (p, u, v) of the reshaped weights is the flat weights array at p·4096² + u·4096 + v. -/
theorem weights_read (x1 : S67108864.Idx → EReal) (p : Fin 4) (u v : Fin 4096) :
    weights3 x1 (ix3 p u v) = x1 (ix1 (⟨p.val * 16777216 + u.val * 4096 + v.val, by omega⟩ : Fin 67108864)) := by
  unfold weights3
  exact shapeCast_apply x1 _ (ix3 p u v) (ix1 (⟨p.val * 16777216 + u.val * 4096 + v.val, by omega⟩ : Fin 67108864)) (by
    rw [Shape.rowMajor_val_one, Shape.rowMajor_val_three]
    show p.val * 16777216 + u.val * 4096 + v.val = (p.val * 4096 + u.val) * 4096 + v.val
    omega)

end Cert.KernelIdeal.HostIn

end
-- ==== Proof.HostOut.lean ====
/-
  What the host lines after the launch make of its [4, 8, 4096] result: for each path p they cut rows 0 … d−1 of slab
  p, drop the unit axis, transpose to 4096 × d, flatten, and join the four flat pieces. Read at an entry,
      piece_p as a matrix [v, i] = result[p, i, v]      (i < d),
  and the program's result is the join of the four flattened pieces of the array the launch leaves.
-/
import proofs.«105715_j81286551044362_2_alg».proof.Proof.HostIdeal
import proofs.«105715_j81286551044362_2_alg».proof.Proof.LibLayout3
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.HostOut

open Cert.KernelIdeal Cert.KernelIdeal.Gen Cert.KernelIdeal.Host
open Idealize.ShloMosaic Idealize.ShloMosaic.TcCoe Idealize.ShloMosaic.ValueIdx Idealize.SL.Sem Idealize.ShloMosaic.StableHlo
open Idealize.ShloMosaic.Pipeline (Dat)

/-- Path 0's part of the launch's result: rows 0 … 0 of slab 0, as a 4096 × 1 matrix (column index first). -/
def cut0 (O : S4x8x4096.Idx → EReal) : S4096x1.Idx → EReal :=
  transpose S4096x1 [1, 0]
    (shapeCast S1x4096 (extractStridedSlice S1x1x4096 ![0, 0, 0] O slices_S4x8x4096_S1x1x4096_0_0_0) shapeCasts_S1x1x4096_S1x4096)
    transposes_S1x4096_S4096x1_1_0
/-- Path 1's part of the launch's result: rows 0 … 2 of slab 1, as a 4096 × 3 matrix (column index first). -/
def cut1 (O : S4x8x4096.Idx → EReal) : S4096x3.Idx → EReal :=
  transpose S4096x3 [1, 0]
    (shapeCast S3x4096 (extractStridedSlice S1x3x4096 ![1, 0, 0] O slices_S4x8x4096_S1x3x4096_1_0_0) shapeCasts_S1x3x4096_S3x4096)
    transposes_S3x4096_S4096x3_1_0
/-- Path 2's part of the launch's result: rows 0 … 4 of slab 2, as a 4096 × 5 matrix (column index first). -/
def cut2 (O : S4x8x4096.Idx → EReal) : S4096x5.Idx → EReal :=
  transpose S4096x5 [1, 0]
    (shapeCast S5x4096 (extractStridedSlice S1x5x4096 ![2, 0, 0] O slices_S4x8x4096_S1x5x4096_2_0_0) shapeCasts_S1x5x4096_S5x4096)
    transposes_S5x4096_S4096x5_1_0
/-- Path 3's part of the launch's result: rows 0 … 6 of slab 3, as a 4096 × 7 matrix (column index first). -/
def cut3 (O : S4x8x4096.Idx → EReal) : S4096x7.Idx → EReal :=
  transpose S4096x7 [1, 0]
    (shapeCast S7x4096 (extractStridedSlice S1x7x4096 ![3, 0, 0] O slices_S4x8x4096_S1x7x4096_3_0_0) shapeCasts_S1x7x4096_S7x4096)
    transposes_S7x4096_S4096x7_1_0

/-- The program's result from the launch's result array: the four parts flattened and joined. -/
def joined (O : S4x8x4096.Idx → EReal) : S65536.Idx → EReal :=
  concatenate S65536 0
    [⟨S4096, shapeCast S4096 (cut0 O) shapeCasts_S4096x1_S4096⟩,
     ⟨S12288, shapeCast S12288 (cut1 O) shapeCasts_S4096x3_S12288⟩,
     ⟨S20480, shapeCast S20480 (cut2 O) shapeCasts_S4096x5_S20480⟩,
     ⟨S28672, shapeCast S28672 (cut3 O) shapeCasts_S4096x7_S28672⟩]
    concatenates_S4096_S12288_S20480_S28672_S65536_d0

/-- Entry (v, i) of path 0's part is the result array at (0, i, v). -/
theorem cut0_read (O : S4x8x4096.Idx → EReal) (v : Fin 4096) (i : Fin 1) :
    cut0 O (ix2 v i) = O (ix3 (0 : Fin 4) (⟨i.val, by omega⟩ : Fin 8) v) := by
  unfold cut0
  refine (transpose_apply [1, 0] _ _ (ix2 v i) (ix2 i v)
    (fun b => by
      match b with
      | ⟨0, _⟩ => rfl
      | ⟨1, _⟩ => rfl)).trans ?_
  refine (Cert.LibLayout3.shapeCast_abc_mc_apply (a := 1) (b := 1) (c := 4096) (m := 1) _ _ (0 : Fin 1) i v i (by simp)).trans ?_
  exact extractStridedSlice_apply ![0, 0, 0] O _ (ix3 (0 : Fin 1) i v) (ix3 (0 : Fin 4) (⟨i.val, by omega⟩ : Fin 8) v)
    (fun a => by
      match a with
      | ⟨0, _⟩ => rfl
      | ⟨1, _⟩ => show i.val = 0 + i.val; omega
      | ⟨2, _⟩ => show v.val = 0 + v.val; omega)

/-- Entry (v, i) of path 1's part is the result array at (1, i, v). -/
theorem cut1_read (O : S4x8x4096.Idx → EReal) (v : Fin 4096) (i : Fin 3) :
    cut1 O (ix2 v i) = O (ix3 (1 : Fin 4) (⟨i.val, by omega⟩ : Fin 8) v) := by
  unfold cut1
  refine (transpose_apply [1, 0] _ _ (ix2 v i) (ix2 i v)
    (fun b => by
      match b with
      | ⟨0, _⟩ => rfl
      | ⟨1, _⟩ => rfl)).trans ?_
  refine (Cert.LibLayout3.shapeCast_abc_mc_apply (a := 1) (b := 3) (c := 4096) (m := 3) _ _ (0 : Fin 1) i v i (by simp)).trans ?_
  exact extractStridedSlice_apply ![1, 0, 0] O _ (ix3 (0 : Fin 1) i v) (ix3 (1 : Fin 4) (⟨i.val, by omega⟩ : Fin 8) v)
    (fun a => by
      match a with
      | ⟨0, _⟩ => rfl
      | ⟨1, _⟩ => show i.val = 0 + i.val; omega
      | ⟨2, _⟩ => show v.val = 0 + v.val; omega)

/-- Entry (v, i) of path 2's part is the result array at (2, i, v). -/
theorem cut2_read (O : S4x8x4096.Idx → EReal) (v : Fin 4096) (i : Fin 5) :
    cut2 O (ix2 v i) = O (ix3 (2 : Fin 4) (⟨i.val, by omega⟩ : Fin 8) v) := by
  unfold cut2
  refine (transpose_apply [1, 0] _ _ (ix2 v i) (ix2 i v)
    (fun b => by
      match b with
      | ⟨0, _⟩ => rfl
      | ⟨1, _⟩ => rfl)).trans ?_
  refine (Cert.LibLayout3.shapeCast_abc_mc_apply (a := 1) (b := 5) (c := 4096) (m := 5) _ _ (0 : Fin 1) i v i (by simp)).trans ?_
  exact extractStridedSlice_apply ![2, 0, 0] O _ (ix3 (0 : Fin 1) i v) (ix3 (2 : Fin 4) (⟨i.val, by omega⟩ : Fin 8) v)
    (fun a => by
      match a with
      | ⟨0, _⟩ => rfl
      | ⟨1, _⟩ => show i.val = 0 + i.val; omega
      | ⟨2, _⟩ => show v.val = 0 + v.val; omega)

/-- Entry (v, i) of path 3's part is the result array at (3, i, v). -/
theorem cut3_read (O : S4x8x4096.Idx → EReal) (v : Fin 4096) (i : Fin 7) :
    cut3 O (ix2 v i) = O (ix3 (3 : Fin 4) (⟨i.val, by omega⟩ : Fin 8) v) := by
  unfold cut3
  refine (transpose_apply [1, 0] _ _ (ix2 v i) (ix2 i v)
    (fun b => by
      match b with
      | ⟨0, _⟩ => rfl
      | ⟨1, _⟩ => rfl)).trans ?_
  refine (Cert.LibLayout3.shapeCast_abc_mc_apply (a := 1) (b := 7) (c := 4096) (m := 7) _ _ (0 : Fin 1) i v i (by simp)).trans ?_
  exact extractStridedSlice_apply ![3, 0, 0] O _ (ix3 (0 : Fin 1) i v) (ix3 (3 : Fin 4) (⟨i.val, by omega⟩ : Fin 8) v)
    (fun a => by
      match a with
      | ⟨0, _⟩ => rfl
      | ⟨1, _⟩ => show i.val = 0 + i.val; omega
      | ⟨2, _⟩ => show v.val = 0 + v.val; omega)

variable (m : (ℓ : Loc nD τ sig) → Buf (Elt Ideal) ℓ)

/-- After the host lines that follow the launch, the result buffer holds the join of the four parts of the array the
    launch left in its output window's array. -/
theorem result_joined (dats : (p : Fin 1) → (c : Dev nD) → Dat τ (Elt Ideal) Unit ℕ (UR sig nD τ) ℕ (cfgs p) c) (c : Dev nD) :
    (Pipeline.afterTail₀ cfgs dats 0 (V0 m) [hostOps1] c main_v39 : S65536.Idx → EReal)
      = joined ((dats 0 c).arrAt 2 cfg0.N) := by
  have hW : (Pipeline.withArrays spec0 c (V0 m c) (fun w => (dats 0 c).arrAt w cfg0.N) (Proc.devRef .tc main_v22) : S4x8x4096.Idx → EReal)
      = (dats 0 c).arrAt 2 cfg0.N := Pipeline.withArrays_arr spec0 launch0.win.arr_inj c _ _ 2
  refine Eq.trans ?_ (congrArg joined hW)
  unfold Pipeline.afterTail₀
  show StableHlo.after hostOps1 _ (Proc.devRef .tc main_v39) = _
  simp only [hostOps1]
  after_results_simp
  rfl

end Cert.KernelIdeal.HostOut

end
-- ==== Proof.Bridge.lean ====
/-
  The two programs compute one function. The kernel program: stack the padded transposed chunks, multiply slab p by
  weight matrix p on the matrix unit, scale, cut rows 0 … d−1 back out, transpose, flatten, join. The reference: for
  each path multiply the weight matrix (contracting its FIRST axis) by the chunk matrix, flatten, scale, join. At
  (v, i) of path p both are
      (Σ_{u < 4096} w[p·4096² + u·4096 + v] · input[off_p + u·d + i]) · scale,
  one with each product's factors as input · weight, the other as weight · input: equal on the extended reals by
  commutativity of the product alone, so no finiteness of the inputs is used. The final join is the same operation
  on both sides and is never opened.
-/
import proofs.«105715_j81286551044362_2_alg».proof.Proof.Blocks
import proofs.«105715_j81286551044362_2_alg».proof.Proof.HostIn
import proofs.«105715_j81286551044362_2_alg».proof.Proof.HostOut
import proofs.«105715_j81286551044362_2_alg».proof.Proof.Gen.ReferenceIdeal.Read

set_option maxRecDepth 16384

noncomputable section

namespace Cert.KernelIdeal.Bridge

open Cert.KernelIdeal Cert.KernelIdeal.Gen Cert.KernelIdeal.Payload Cert.KernelIdeal.Blocks Cert.KernelIdeal.HostIn Cert.KernelIdeal.HostOut
open Idealize.ShloMosaic Idealize.ShloMosaic.ValueIdx

/-! ## Path 0 (d = 1) -/

/-- The kernel's chunk-0 matrix is the reference's. -/
theorem mat0_ref (x0 : S65536.Idx → EReal) : mat0 x0 = Cert.ReferenceIdeal.Read.val_main_v1 (F := Ideal) x0 := rfl

/-- The reference's weight matrix 0 at (u, v) is the flat weights array at 0·4096² + u·4096 + v. -/
theorem wref0_read (x1 : S67108864.Idx → EReal) (u v : Fin 4096) :
    Cert.ReferenceIdeal.Read.val_main_v3 (F := Ideal) x1 (ix2 u v) = x1 (ix1 (⟨0 * 16777216 + u.val * 4096 + v.val, by omega⟩ : Fin 67108864)) := by
  rw [Cert.ReferenceIdeal.Read.val_main_v3_apply, Cert.ReferenceIdeal.Read.val_main_v2_apply]
  refine congrArg x1 (funext fun a => Fin.ext ?_)
  match a with
  | ⟨0, _⟩ => show (u.val * 4096 + v.val) = 0 * 16777216 + u.val * 4096 + v.val; omega

/-- Path 0's part of the launch's result, as a 4096 × 1 matrix, is the reference's product matrix scaled: both are
    (Σ_u w_0[u, v] · chunk_0[u, i]) · scale at (v, i), the factors of each term in the other order. -/
theorem cut0_ref (x0 : S65536.Idx → EReal) (x1 : S67108864.Idx → EReal) :
    cut0 (outArr (stacked x0) (weights3 x1)) = fun k => Cert.ReferenceIdeal.Read.val_main_v4 (F := Ideal) x0 x1 k * scale := by
  funext k
  obtain ⟨v, i, rfl⟩ : ∃ (v : Fin 4096) (i : Fin 1), k = ix2 v i := ⟨k 0, k 1, eq_ix2 k⟩
  rw [cut0_read]
  show outAt (stacked x0) (weights3 x1) (0 : Fin 4) (⟨i.val, by omega⟩ : Fin 8) v = _
  unfold outAt
  rw [Cert.ReferenceIdeal.Read.val_main_v4_apply]
  refine congrArg (fun s : EReal => s * scale) (Finset.sum_congr rfl fun u _ => ?_)
  have hl : Cert.ReferenceIdeal.Read.lidx_main_v4 (ix2 v i) u = ix2 u v := funext fun a => Fin.ext (by
    match a with
    | ⟨0, _⟩ => rfl
    | ⟨1, _⟩ => rfl)
  have hr : Cert.ReferenceIdeal.Read.ridx_main_v4 (ix2 v i) u = ix2 u i := funext fun a => Fin.ext (by
    match a with
    | ⟨0, _⟩ => rfl
    | ⟨1, _⟩ => rfl)
  rw [hl, hr, stacked_read0, weights_read, wref0_read, ← mat0_ref, mul_comm]
  rfl

/-- Flattened, it is the reference's piece 0: flattening commutes with scaling every entry. -/
theorem piece0_ref (x0 : S65536.Idx → EReal) (x1 : S67108864.Idx → EReal) :
    shapeCast S4096 (cut0 (outArr (stacked x0) (weights3 x1))) shapeCasts_S4096x1_S4096
      = Cert.ReferenceIdeal.Read.val_main_v7 (F := Ideal) x0 x1 := by
  rw [cut0_ref]
  rfl

/-! ## Path 1 (d = 3) -/

/-- The kernel's chunk-1 matrix is the reference's. -/
theorem mat1_ref (x0 : S65536.Idx → EReal) : mat1 x0 = Cert.ReferenceIdeal.Read.val_main_v9 (F := Ideal) x0 := rfl

/-- The reference's weight matrix 1 at (u, v) is the flat weights array at 1·4096² + u·4096 + v. -/
theorem wref1_read (x1 : S67108864.Idx → EReal) (u v : Fin 4096) :
    Cert.ReferenceIdeal.Read.val_main_v11 (F := Ideal) x1 (ix2 u v) = x1 (ix1 (⟨1 * 16777216 + u.val * 4096 + v.val, by omega⟩ : Fin 67108864)) := by
  rw [Cert.ReferenceIdeal.Read.val_main_v11_apply, Cert.ReferenceIdeal.Read.val_main_v10_apply]
  refine congrArg x1 (funext fun a => Fin.ext ?_)
  match a with
  | ⟨0, _⟩ => show 16777216 + (u.val * 4096 + v.val) = 1 * 16777216 + u.val * 4096 + v.val; omega

/-- Path 1's part of the launch's result, as a 4096 × 3 matrix, is the reference's product matrix scaled: both are
    (Σ_u w_1[u, v] · chunk_1[u, i]) · scale at (v, i), the factors of each term in the other order. -/
theorem cut1_ref (x0 : S65536.Idx → EReal) (x1 : S67108864.Idx → EReal) :
    cut1 (outArr (stacked x0) (weights3 x1)) = fun k => Cert.ReferenceIdeal.Read.val_main_v12 (F := Ideal) x0 x1 k * scale := by
  funext k
  obtain ⟨v, i, rfl⟩ : ∃ (v : Fin 4096) (i : Fin 3), k = ix2 v i := ⟨k 0, k 1, eq_ix2 k⟩
  rw [cut1_read]
  show outAt (stacked x0) (weights3 x1) (1 : Fin 4) (⟨i.val, by omega⟩ : Fin 8) v = _
  unfold outAt
  rw [Cert.ReferenceIdeal.Read.val_main_v12_apply]
  refine congrArg (fun s : EReal => s * scale) (Finset.sum_congr rfl fun u _ => ?_)
  have hl : Cert.ReferenceIdeal.Read.lidx_main_v12 (ix2 v i) u = ix2 u v := funext fun a => Fin.ext (by
    match a with
    | ⟨0, _⟩ => rfl
    | ⟨1, _⟩ => rfl)
  have hr : Cert.ReferenceIdeal.Read.ridx_main_v12 (ix2 v i) u = ix2 u i := funext fun a => Fin.ext (by
    match a with
    | ⟨0, _⟩ => rfl
    | ⟨1, _⟩ => rfl)
  rw [hl, hr, stacked_read1, weights_read, wref1_read, ← mat1_ref, mul_comm]
  rfl

/-- Flattened, it is the reference's piece 1: flattening commutes with scaling every entry. -/
theorem piece1_ref (x0 : S65536.Idx → EReal) (x1 : S67108864.Idx → EReal) :
    shapeCast S12288 (cut1 (outArr (stacked x0) (weights3 x1))) shapeCasts_S4096x3_S12288
      = Cert.ReferenceIdeal.Read.val_main_v15 (F := Ideal) x0 x1 := by
  rw [cut1_ref]
  rfl

/-! ## Path 2 (d = 5) -/

/-- The kernel's chunk-2 matrix is the reference's. -/
theorem mat2_ref (x0 : S65536.Idx → EReal) : mat2 x0 = Cert.ReferenceIdeal.Read.val_main_v17 (F := Ideal) x0 := rfl

/-- The reference's weight matrix 2 at (u, v) is the flat weights array at 2·4096² + u·4096 + v. -/
theorem wref2_read (x1 : S67108864.Idx → EReal) (u v : Fin 4096) :
    Cert.ReferenceIdeal.Read.val_main_v19 (F := Ideal) x1 (ix2 u v) = x1 (ix1 (⟨2 * 16777216 + u.val * 4096 + v.val, by omega⟩ : Fin 67108864)) := by
  rw [Cert.ReferenceIdeal.Read.val_main_v19_apply, Cert.ReferenceIdeal.Read.val_main_v18_apply]
  refine congrArg x1 (funext fun a => Fin.ext ?_)
  match a with
  | ⟨0, _⟩ => show 33554432 + (u.val * 4096 + v.val) = 2 * 16777216 + u.val * 4096 + v.val; omega

/-- Path 2's part of the launch's result, as a 4096 × 5 matrix, is the reference's product matrix scaled: both are
    (Σ_u w_2[u, v] · chunk_2[u, i]) · scale at (v, i), the factors of each term in the other order. -/
theorem cut2_ref (x0 : S65536.Idx → EReal) (x1 : S67108864.Idx → EReal) :
    cut2 (outArr (stacked x0) (weights3 x1)) = fun k => Cert.ReferenceIdeal.Read.val_main_v20 (F := Ideal) x0 x1 k * scale := by
  funext k
  obtain ⟨v, i, rfl⟩ : ∃ (v : Fin 4096) (i : Fin 5), k = ix2 v i := ⟨k 0, k 1, eq_ix2 k⟩
  rw [cut2_read]
  show outAt (stacked x0) (weights3 x1) (2 : Fin 4) (⟨i.val, by omega⟩ : Fin 8) v = _
  unfold outAt
  rw [Cert.ReferenceIdeal.Read.val_main_v20_apply]
  refine congrArg (fun s : EReal => s * scale) (Finset.sum_congr rfl fun u _ => ?_)
  have hl : Cert.ReferenceIdeal.Read.lidx_main_v20 (ix2 v i) u = ix2 u v := funext fun a => Fin.ext (by
    match a with
    | ⟨0, _⟩ => rfl
    | ⟨1, _⟩ => rfl)
  have hr : Cert.ReferenceIdeal.Read.ridx_main_v20 (ix2 v i) u = ix2 u i := funext fun a => Fin.ext (by
    match a with
    | ⟨0, _⟩ => rfl
    | ⟨1, _⟩ => rfl)
  rw [hl, hr, stacked_read2, weights_read, wref2_read, ← mat2_ref, mul_comm]
  rfl

/-- Flattened, it is the reference's piece 2: flattening commutes with scaling every entry. -/
theorem piece2_ref (x0 : S65536.Idx → EReal) (x1 : S67108864.Idx → EReal) :
    shapeCast S20480 (cut2 (outArr (stacked x0) (weights3 x1))) shapeCasts_S4096x5_S20480
      = Cert.ReferenceIdeal.Read.val_main_v23 (F := Ideal) x0 x1 := by
  rw [cut2_ref]
  rfl

/-! ## Path 3 (d = 7) -/

/-- The kernel's chunk-3 matrix is the reference's. -/
theorem mat3_ref (x0 : S65536.Idx → EReal) : mat3 x0 = Cert.ReferenceIdeal.Read.val_main_v25 (F := Ideal) x0 := rfl

/-- The reference's weight matrix 3 at (u, v) is the flat weights array at 3·4096² + u·4096 + v. -/
theorem wref3_read (x1 : S67108864.Idx → EReal) (u v : Fin 4096) :
    Cert.ReferenceIdeal.Read.val_main_v27 (F := Ideal) x1 (ix2 u v) = x1 (ix1 (⟨3 * 16777216 + u.val * 4096 + v.val, by omega⟩ : Fin 67108864)) := by
  rw [Cert.ReferenceIdeal.Read.val_main_v27_apply, Cert.ReferenceIdeal.Read.val_main_v26_apply]
  refine congrArg x1 (funext fun a => Fin.ext ?_)
  match a with
  | ⟨0, _⟩ => show 50331648 + (u.val * 4096 + v.val) = 3 * 16777216 + u.val * 4096 + v.val; omega

/-- Path 3's part of the launch's result, as a 4096 × 7 matrix, is the reference's product matrix scaled: both are
    (Σ_u w_3[u, v] · chunk_3[u, i]) · scale at (v, i), the factors of each term in the other order. -/
theorem cut3_ref (x0 : S65536.Idx → EReal) (x1 : S67108864.Idx → EReal) :
    cut3 (outArr (stacked x0) (weights3 x1)) = fun k => Cert.ReferenceIdeal.Read.val_main_v28 (F := Ideal) x0 x1 k * scale := by
  funext k
  obtain ⟨v, i, rfl⟩ : ∃ (v : Fin 4096) (i : Fin 7), k = ix2 v i := ⟨k 0, k 1, eq_ix2 k⟩
  rw [cut3_read]
  show outAt (stacked x0) (weights3 x1) (3 : Fin 4) (⟨i.val, by omega⟩ : Fin 8) v = _
  unfold outAt
  rw [Cert.ReferenceIdeal.Read.val_main_v28_apply]
  refine congrArg (fun s : EReal => s * scale) (Finset.sum_congr rfl fun u _ => ?_)
  have hl : Cert.ReferenceIdeal.Read.lidx_main_v28 (ix2 v i) u = ix2 u v := funext fun a => Fin.ext (by
    match a with
    | ⟨0, _⟩ => rfl
    | ⟨1, _⟩ => rfl)
  have hr : Cert.ReferenceIdeal.Read.ridx_main_v28 (ix2 v i) u = ix2 u i := funext fun a => Fin.ext (by
    match a with
    | ⟨0, _⟩ => rfl
    | ⟨1, _⟩ => rfl)
  rw [hl, hr, stacked_read3, weights_read, wref3_read, ← mat3_ref, mul_comm]
  rfl

/-- Flattened, it is the reference's piece 3: flattening commutes with scaling every entry. -/
theorem piece3_ref (x0 : S65536.Idx → EReal) (x1 : S67108864.Idx → EReal) :
    shapeCast S28672 (cut3 (outArr (stacked x0) (weights3 x1))) shapeCasts_S4096x7_S28672
      = Cert.ReferenceIdeal.Read.val_main_v31 (F := Ideal) x0 x1 := by
  rw [cut3_ref]
  rfl

/-! ## The whole result -/

/-- The join of the kernel program's four pieces is the reference's result: piece by piece, the join itself shared. -/
theorem joined_ref (x0 : S65536.Idx → EReal) (x1 : S67108864.Idx → EReal) :
    joined (outArr (stacked x0) (weights3 x1)) = Cert.ReferenceIdeal.Read.val_main_v32 (F := Ideal) x0 x1 := by
  unfold joined
  rw [piece0_ref, piece1_ref, piece2_ref, piece3_ref]
  rfl

end Cert.KernelIdeal.Bridge

end
-- ==== Proof.Result.lean ====
/-
  The idealized kernel program's run with its result named: every weakly fair execution terminates without a fault,
  the result buffer holding the reference's function of the two argument arrays and the arguments unchanged. The
  chain: the result buffer is what the host lines after the launch make of the launch's output array; that array is
  the scaled slab-by-slab matrix product of the two arrays the launch found; those are the stacked padded chunks of
  the input and the reshaped weights; and the join of the cut-out pieces of that product is the reference's result.
-/
import proofs.«105715_j81286551044362_2_alg».proof.Proof.Bridge

noncomputable section

namespace Cert.KernelIdeal.Result

open Cert.KernelIdeal Cert.KernelIdeal.Gen Cert.KernelIdeal.Host Cert.KernelIdeal.Run
open Cert.KernelIdeal.Blocks Cert.KernelIdeal.HostIn Cert.KernelIdeal.HostOut Cert.KernelIdeal.Bridge
open Idealize.ShloMosaic Idealize.ShloMosaic.TcCoe Idealize.SL.Sem

variable (m : (ℓ : Loc nD τ sig) → Buf (Elt Ideal) ℓ) (ρ : Dev nD → PrngReg)

/-- What the result buffer holds after the host lines that follow the launch. -/
theorem value_eq (c : Dev nD) :
    (Pipeline.afterTail₀ cfgs (dats m) 0 (V0 m) [hostOps1] c main_v39 : S65536.Idx → EReal)
      = Cert.ReferenceIdeal.Read.val_main_v32 (F := Ideal) (m ((c : Thread nD τ).loc main_arg0)) (m ((c : Thread nD τ).loc main_arg1)) := by
  rw [result_joined m (dats m) c, final m c, found_stacked m c, found_weights m c]
  exact joined_ref _ _

/-- The run, with the result named and the arguments unchanged. -/
theorem run_value : θ_run defs (onTc (τ := τ) (main (F := Ideal))) ⟨m, fun _ => 0, ρ⟩ (fun r => ∀ c : Dev nD,
      r.2.mem ((c.tc : Thread nD τ).loc main_v39)
        = Cert.ReferenceIdeal.Read.val_main_v32 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v39 (Pipeline.mem_restRefs_of main_v39 (by decide) (by decide))).trans (value_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Result

end
-- ==== Proof.lean ====
/-
  The certificate of a fused equivariant linear layer: four paths (d = 1, 3, 5, 7), each a 4096 × 4096 weight matrix
  applied to a 4096 × d chunk of the input and scaled by one constant. The kernel program pads each transposed chunk
  to eight rows, stacks the four, and runs ONE launch over a 4 × 8 grid whose body multiplies an 8 × 4096 block by a
  4096 × 512 block and scales the product; host lines then cut the d real rows of each slab back out, transpose,
  flatten and join them. The reference multiplies each weight matrix by its chunk on the host, flattens, scales and
  joins.

  The three frames: each kernel program is host lines, one launch, host lines; the body reads two whole buffers and
  overwrites a third, so the launch runs to the end at every grid point, and neither argument array is an array of
  the launch or written by a host line. The reference is straight-line host code. The ideal pass rewrote nothing, so
  there is nothing to preserve. The value claim: at the exact reading both programs compute, at entry (v, i) of path
  p, the scaled sum over u of weight[u, v] times chunk[u, i]; they differ only in the order of the two factors of
  each term, and the product of extended reals commutes, so the claim needs no finiteness of the inputs.
-/
import proofs.«105715_j81286551044362_2_alg».proof.Defs
import proofs.«105715_j81286551044362_2_alg».proof.Proof.Gen.Kernel
import proofs.«105715_j81286551044362_2_alg».proof.Proof.Gen.KernelIdeal
import proofs.«105715_j81286551044362_2_alg».proof.Proof.Gen.ReferenceIdeal
import proofs.«105715_j81286551044362_2_alg».proof.Proof.Gen.Pre_finite_inputs
import proofs.«105715_j81286551044362_2_alg».proof.Proof.Gen.ReferenceIdeal.Run
import proofs.«105715_j81286551044362_2_alg».proof.Proof.Gen.ReferenceIdeal.Read
import proofs.«105715_j81286551044362_2_alg».proof.Proof.RunBits
import proofs.«105715_j81286551044362_2_alg».proof.Proof.Result
import Idealize.ShloMosaic.Adequacy
import Idealize.ShloMosaic.Init

noncomputable section

namespace Cert.Proof

open Idealize.ShloMosaic Idealize.SL.Sem

/-- The kernel program as printed runs to the end, faults nowhere and leaves its arguments unchanged. -/
theorem frame_kernel : Cert.frame_Kernel := fun m ρ _ => Cert.Kernel.Run.frame m ρ

/-- So does its idealization. -/
theorem frame_kernel_ideal : Cert.frame_KernelIdeal := fun m ρ _ => Cert.KernelIdeal.Run.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the same result: the reference's function
    of the arguments. -/
theorem algebraic : Cert.algebraic_KernelIdeal_ReferenceIdeal := by
  intro m ρ m' ρ' _ hagree
  refine ⟨_, Cert.KernelIdeal.Result.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
